-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x256 : Shape := ⟨2, ![1000000, 256]⟩
abbrev S1000000 : Shape := ⟨1, ![1000000]⟩
abbrev S4096x256 : Shape := ⟨2, ![4096, 256]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S1000000x256 : S_.BroadcastsInDim S1000000x256 (![] : Fin 0 → Fin S1000000x256.rank)
  reducesTo_S1000000x256_S_d0_1 : S1000000x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x32 .f32) (main_arg6 : FVec F S32 .f32) (main_arg7 : FVec F S32x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg7
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg8 main_v33

def fn {F : FTy → Type} [FloatOps F] (main_arg0 : FVec F S1000000x256 .f32) (main_arg1 : IVec S1000000 32) (main_arg2 : FVec F S4096x256 .f32) (main_arg3 : FVec F S4x64 .f32) (main_arg4 : FVec F S64 .f32) (main_arg5 : FVec F S64x32 .f32) (main_arg6 : FVec F S32 .f32) (main_arg7 : FVec F S32x1 .f32) (main_arg8 : FVec F S1 .f32) : IVec S_ 1 :=
  let main_v0 : FVec F S1000000x256 .f32 := Host.absf main_arg0
  let main_cst : FVec F S_ .f32 := constant S_ .f32 0x7F800000#32
  let main_v1 : FVec F S1000000x256 .f32 := broadcastInDim S1000000x256 ![] bcast_S_S1000000x256 main_cst
  let main_v2 : IVec S1000000x256 1 := cmpf .olt main_v0 main_v1
  let main_c : IVec S_ 1 := constantI S_ 1 1#1
  let main_v3 : IVec S_ 1 := (fun x v => Host.reduce IntOp.andi x v reducesTo_S1000000x256_S_d0_1 h_S_) main_v2 main_c
  let main_v4 : FVec F S4096x256 .f32 := Host.absf main_arg2
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S1000000x256 : Shape := ⟨2, ![1000000, 256]⟩
abbrev S1000000 : Shape := ⟨1, ![1000000]⟩
abbrev S4096x256 : Shape := ⟨2, ![4096, 256]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1000000x4 : Shape := ⟨2, ![1000000, 4]⟩
abbrev S10000x256 : Shape := ⟨2, ![10000, 256]⟩
abbrev S10000x4 : Shape := ⟨2, ![10000, 4]⟩
abbrev S10000x1 : Shape := ⟨2, ![10000, 1]⟩
abbrev S_ : Shape := ⟨0, ![]⟩
abbrev S4096x4 : Shape := ⟨2, ![4096, 4]⟩
abbrev S1000000x1 : Shape := ⟨2, ![1000000, 1]⟩
abbrev S4096 : Shape := ⟨1, ![4096]⟩
abbrev S4096x1 : Shape := ⟨2, ![4096, 1]⟩
abbrev S4096x64 : Shape := ⟨2, ![4096, 64]⟩
abbrev S1x64 : Shape := ⟨2, ![1, 64]⟩
abbrev S4096x32 : Shape := ⟨2, ![4096, 32]⟩
abbrev S1x32 : Shape := ⟨2, ![1, 32]⟩
abbrev S1x1 : Shape := ⟨2, ![1, 1]⟩

abbrev nBuf : Space → Nat
  | .hbm => 59
  | .vmem => 4
  | .smem => 0
  | _ => 0

abbrev bufTy : (tb : Table) → Fin (tcTables nBuf tb) → BufTy
  | .hbm, ⟨0, _⟩ => ⟨S1000000x256, .f32⟩
  | .hbm, ⟨1, _⟩ => ⟨S1000000, .i32⟩
  | .hbm, ⟨2, _⟩ => ⟨S4096x256, .f32⟩
  | .hbm, ⟨3, _⟩ => ⟨S4x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1000000x4, .f32⟩
  | .hbm, ⟨10, _⟩ => ⟨S_, .f32⟩
  | .hbm, ⟨11, _⟩ => ⟨S4096x4, .f32⟩
  | .hbm, ⟨12, _⟩ => ⟨S1000000x1, .i32⟩
  | .hbm, ⟨13, _⟩ => ⟨S4096x4, .f32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S4096, .f32⟩
  | .hbm, ⟨18, _⟩ => ⟨S1000000x1, .i32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x4, .f32⟩
  | .hbm, ⟨25, _⟩ => ⟨S4096x4, .f32⟩
  | .hbm, ⟨26, _⟩ => ⟨S4096x64, .f32⟩
  | .hbm, ⟨27, _⟩ => ⟨S1x64, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x32, .f32⟩
  | .hbm, ⟨34, _⟩ => ⟨S1x32, .f32⟩
  | .hbm, ⟨35, _⟩ => ⟨S4096x32, .f32⟩
  | .hbm, ⟨36, _⟩ => ⟨S4096x32, .f32⟩
  | .hbm, ⟨37, _⟩ => ⟨S_, .f32⟩
  | .hbm, ⟨38, _⟩ => ⟨S4096x32, .f32⟩
  | .hbm, ⟨39, _⟩ => ⟨S4096x32, .f32⟩
  | .hbm, ⟨40, _⟩ => ⟨S4096x1, .f32⟩
  | .hbm, ⟨41, _⟩ => ⟨S1x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .i1⟩
  | .hbm, ⟨56, _⟩ => ⟨S_, .f32⟩
  | .hbm, ⟨57, _⟩ => ⟨S4096, .f32⟩
  | .hbm, ⟨58, _⟩ => ⟨S4096, .f32⟩
  | .local _ .vmem, ⟨0, _⟩ => ⟨S10000x256, .f32⟩
  | .local _ .vmem, ⟨1, _⟩ => ⟨S10000x256, .f32⟩
  | .local _ .vmem, ⟨2, _⟩ => ⟨S10000x4, .f32⟩
  | .local _ .vmem, ⟨3, _⟩ => ⟨S10000x4, .f32⟩
  | _, _ => ⟨S1000000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call1_cst : Ref sig .tc := ⟨.hbm, 37, rfl⟩
abbrev main_call1_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_call2_v0 : Ref sig .tc := ⟨.hbm, 57, rfl⟩
abbrev main_v36 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  slices_S10000x256_o0_8_S10000x1 : S10000x256.Slices ![0, 8] S10000x1
  slices_S10000x256_o0_10_S10000x1 : S10000x256.Slices ![0, 10] S10000x1
  slices_S10000x256_o0_14_S10000x1 : S10000x256.Slices ![0, 14] S10000x1
  slices_S10000x256_o0_15_S10000x1 : S10000x256.Slices ![0, 15] S10000x1
  concatenates_S10000x1_S10000x1_S10000x1_S10000x1_S10000x4_d1 : Shape.Concatenates [S10000x1, S10000x1, S10000x1, S10000x1] S10000x4 1
  inb_S10000x4_S10000x4_0_0 : ∀ a, (![0, 0] : Fin 2 → Nat) a + S10000x4.size a ≤ S10000x4.size a
  h_S10000x4 : 0 < S10000x4.numel
  bcast_S_S4096x4 : S_.BroadcastsInDim S4096x4 (![] : Fin 0 → Fin S4096x4.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4_0_1 : S4096x1.BroadcastsInDim S4096x4 (![0, 1] : Fin 2 → Fin S4096x4.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  shapeCasts_S4096x1_S4096 : S4096x1.ShapeCasts S4096
  scatter_S4096x4_S1000000x1_S1000000x4_1_0_0_1_wf : ScatterDims.WF S4096x4 S1000000x1 S1000000x4 [1] [0] [0] 1
  scatter_S4096_S1000000x1_S1000000_n_0_0_1_wf : ScatterDims.WF S4096 S1000000x1 S1000000 [] [0] [0] 1
  dot_S4096x4_S4x64_S4096x64_1_0_0_1_n_n_wf : DotDims.WF S4096x4 S4x64 S4096x64 [1] [0] [0] [1] [] []
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S1000000x256.size a
  hwx0_0 : ∀ i : grid0.Coords, EltTy.bits .f32 = 32 ∨ (Rect.block (s := S1000000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x4.size a ≤ S1000000x4.size a
  hwx0_1 : ∀ i : grid0.Coords, EltTy.bits .f32 = 32 ∨ (Rect.block (s := S1000000x4) S10000x4.size (cc0_transform_1 i) (hinb0_1 i)).WholeWords (EltTy.packing .f32)

variable [Facts₀]

def scatter_S4096x4_S1000000x1_S1000000x4_1_0_0_1 : ScatterDims S4096x4 S1000000x1 S1000000x4 where
  updateWindowDims := [1]
  insertedWindowDims := [0]
  scatterDimsToOperandDims := [0]
  indexVectorDim := 1
  wf := scatter_S4096x4_S1000000x1_S1000000x4_1_0_0_1_wf
def scatter_S4096_S1000000x1_S1000000_n_0_0_1 : ScatterDims S4096 S1000000x1 S1000000 where
  updateWindowDims := []
  insertedWindowDims := [0]
  scatterDimsToOperandDims := [0]
  indexVectorDim := 1
  wf := scatter_S4096_S1000000x1_S1000000_n_0_0_1_wf
def dot_S4096x4_S4x64_S4096x64_1_0_0_1_n_n : DotDims S4096x4 S4x64 S4096x64 where
  lhsContracting := [1]
  rhsContracting := [0]
  lhsNonContracting := [0]
  rhsNonContracting := [1]
  lhsBatch := []
  rhsBatch := []
  wf := dot_S4096x4_S4x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000x256 : Shape := ⟨2, ![1000000, 256]⟩
abbrev S1000000 : Shape := ⟨1, ![1000000]⟩
abbrev S4096x256 : Shape := ⟨2, ![4096, 256]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S4 : Shape := ⟨1, ![4]⟩
abbrev S_ : Shape := ⟨0, ![]⟩
abbrev S4x1 : Shape := ⟨2, ![4, 1]⟩
abbrev S1000000x4 : Shape := ⟨2, ![1000000, 4]⟩
abbrev S4096x4 : Shape := ⟨2, ![4096, 4]⟩
abbrev S1000000x1 : Shape := ⟨2, ![1000000, 1]⟩
abbrev S4096 : Shape := ⟨1, ![4096]⟩
abbrev S4096x1 : Shape := ⟨2, ![4096, 1]⟩
abbrev S4096x64 : Shape := ⟨2, ![4096, 64]⟩
abbrev S1x64 : Shape := ⟨2, ![1, 64]⟩
abbrev S4096x32 : Shape := ⟨2, ![4096, 32]⟩
abbrev S1x32 : Shape := ⟨2, ![1, 32]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1000000x256, .f32⟩
  | .hbm, ⟨1, _⟩ => ⟨S1000000, .i32⟩
  | .hbm, ⟨2, _⟩ => ⟨S4096x256, .f32⟩
  | .hbm, ⟨3, _⟩ => ⟨S4x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S4, .i32⟩
  | .hbm, ⟨17, _⟩ => ⟨S4x1, .i32⟩
  | .hbm, ⟨18, _⟩ => ⟨S1000000x4, .f32⟩
  | .hbm, ⟨19, _⟩ => ⟨S_, .f32⟩
  | .hbm, ⟨20, _⟩ => ⟨S4096x4, .f32⟩
  | .hbm, ⟨21, _⟩ => ⟨S1000000x1, .i32⟩
  | .hbm, ⟨22, _⟩ => ⟨S4096x4, .f32⟩
  | .hbm, ⟨23, _⟩ => ⟨S_, .f32⟩
  | .hbm, ⟨24, _⟩ => ⟨S1000000, .f32⟩
  | .hbm, ⟨25, _⟩ => ⟨S_, .f32⟩
  | .hbm, ⟨26, _⟩ => ⟨S4096, .f32⟩
  | .hbm, ⟨27, _⟩ => ⟨S1000000x1, .i32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x4, .f32⟩
  | .hbm, ⟨34, _⟩ => ⟨S4096x4, .f32⟩
  | .hbm, ⟨35, _⟩ => ⟨S4096x64, .f32⟩
  | .hbm, ⟨36, _⟩ => ⟨S1x64, .f32⟩
  | .hbm, ⟨37, _⟩ => ⟨S4096x64, .f32⟩
  | .hbm, ⟨38, _⟩ => ⟨S4096x64, .f32⟩
  | .hbm, ⟨39, _⟩ => ⟨S_, .f32⟩
  | .hbm, ⟨40, _⟩ => ⟨S4096x64, .f32⟩
  | .hbm, ⟨41, _⟩ => ⟨S4096x64, .f32⟩
  | .hbm, ⟨42, _⟩ => ⟨S4096x32, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S_, .f32⟩
  | .hbm, ⟨47, _⟩ => ⟨S4096x32, .f32⟩
  | .hbm, ⟨48, _⟩ => ⟨S4096x32, .f32⟩
  | .hbm, ⟨49, _⟩ => ⟨S4096x1, .f32⟩
  | .hbm, ⟨50, _⟩ => ⟨S1x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .i1⟩
  | .hbm, ⟨65, _⟩ => ⟨S_, .f32⟩
  | .hbm, ⟨66, _⟩ => ⟨S4096, .f32⟩
  | .hbm, ⟨67, _⟩ => ⟨S4096, .f32⟩
  | _, _ => ⟨S1000000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_call2_v0 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S_S4096x4 : S_.BroadcastsInDim S4096x4 (![] : Fin 0 → Fin S4096x4.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4_0_1 : S4096x1.BroadcastsInDim S4096x4 (![0, 1] : Fin 2 → Fin S4096x4.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  shapeCasts_S4096x1_S4096 : S4096x1.ShapeCasts S4096
  gather_S1000000x256_S4x1_S1000000x4_0_1_n_n_1_1_10000001_wf : GatherDims.WF S1000000x256 S4x1 S1000000x4 [0] [1] [] [1] [] 1 ![1000000, 1]
  scatter_S4096x4_S1000000x1_S1000000x4_1_0_0_1_wf : ScatterDims.WF S4096x4 S1000000x1 S1000000x4 [1] [0] [0] 1
  scatter_S4096_S1000000x1_S1000000_n_0_0_1_wf : ScatterDims.WF S4096 S1000000x1 S1000000 [] [0] [0] 1
  dot_S4096x4_S4x64_S4096x64_1_0_0_1_n_n_wf : DotDims.WF S4096x4 S4x64 S4096x64 [1] [0] [0] [1] [] []
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []

variable [Facts₀]

def gather_S1000000x256_S4x1_S1000000x4_0_1_n_n_1_1_10000001 : GatherDims S1000000x256 S4x1 S1000000x4 where
  offsetDims := [0]
  collapsedSliceDims := [1]
  operandBatchingDims := []
  startIndicesBatchingDims := []
  startIndexMap := [1]
  indexVectorDim := 1
  sliceSizes := ![1000000, 1]
  wf := gather_S1000000x256_S4x1_S1000000x4_0_1_n_n_1_1_10000001_wf
def scatter_S4096x4_S1000000x1_S1000000x4_1_0_0_1 : ScatterDims S4096x4 S1000000x1 S1000000x4 where
  updateWindowDims := [1]
  insertedWindowDims := [0]
  scatterDimsToOperandDims := [0]
  indexVectorDim := 1
  wf := scatter_S4096x4_S1000000x1_S1000000x4_1_0_0_1_wf
def scatter_S4096_S1000000x1_S1000000_n_0_0_1 : ScatterDims S4096 S1000000x1 S1000000 where
  updateWindowDims := []
  insertedWindowDims := [0]
  scatterDimsToOperandDims := [0]
  indexVectorDim := 1
  wf := scatter_S4096_S1000000x1_S1000000_n_0_0_1_wf
def dot_S4096x4_S4x64_S4096x64_1_0_0_1_n_n : DotDims S4096x4 S4x64 S4096x64 where
  lhsContracting := [1]
  rhsContracting := [0]
  lhsNonContracting := [0]
  rhsNonContracting := [1]
  lhsBatch := []
  rhsBatch := []
  wf := dot_S4096x4_S4x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Columns.lean ====
/-
  The specification. Of the 256 features of a node only four are used: those in columns 8, 10, 14 and 15. Both programs
  first form the matrix of these four columns, one row per node,

      picked x (n, q) = x (n, c q),   c = (8, 10, 14, 15),

  and everything after that (the sums and counts per graph, the means, the three dense layers, the logistic and the
  mask for empty graphs) is one and the same function of this matrix and of the remaining arguments. So the two programs
  agree as soon as their two matrices are this one function of the feature array, whatever the entries are: no entry is
  added, multiplied or compared here, and no finiteness is needed.
-/
import Idealize.ShloMosaic.Lib.ValueIdx

namespace Cert.CallFeatures

open Idealize.ShloMosaic Idealize.ShloMosaic.ValueIdx

/-- The four feature columns that are kept, in the order they are kept. -/
def col : Fin 4 → Fin 256
  | ⟨0, _⟩ => ⟨8, by decide⟩
  | ⟨1, _⟩ => ⟨10, by decide⟩
  | ⟨2, _⟩ => ⟨14, by decide⟩
  | ⟨3, _⟩ => ⟨15, by decide⟩

theorem col_val0 : (col ⟨0, by decide⟩).val = 8 := rfl
theorem col_val1 : (col ⟨1, by decide⟩).val = 10 := rfl
theorem col_val2 : (col ⟨2, by decide⟩).val = 14 := rfl
theorem col_val3 : (col ⟨3, by decide⟩).val = 15 := rfl

/-- The matrix of the four kept columns of an array with `R` rows of 256 entries: row `n`, entry `q` is the array's
    entry in row `n`, column `col q`. -/
def picked {α : Type} {R : Nat} (x : (⟨2, ![R, 256]⟩ : Shape).Idx → α) : (⟨2, ![R, 4]⟩ : Shape).Idx → α :=
  fun i => x (ix2 (⟨(i 0).val, idx2_lt0 i⟩ : Fin R) (col ⟨(i 1).val, idx2_lt1 i⟩))

/-- Read at explicit coordinates. -/
theorem picked_apply {α : Type} {R : Nat} (x : (⟨2, ![R, 256]⟩ : Shape).Idx → α) (n : Fin R) (q : Fin 4) :
    picked x (ix2 n q) = x (ix2 n (col q)) := rfl

end Cert.CallFeatures
-- ==== Proof.KernelBlock.lean ====
/-
  What the kernel body stores at one grid point, entry by entry. The body loads its block of 10000 rows of the feature
  array, cuts out the four single columns 8, 10, 14 and 15 and lays them side by side; it stores the result over its whole
  output block. So the stored block at row `r`, entry `q` is the loaded block at row `r`, column `col q`: of four
  one-column pieces laid side by side, entry `q` of a row lies in piece `q` (the pieces before it span `q` columns), and a
  one-column slice cut at offset `o` reads column `o`.
-/
import proofs.«125669_j81587198755028_1_alg».proof.Proof.Gen.KernelIdeal.Skeleton
import proofs.«125669_j81587198755028_1_alg».proof.Proof.Columns
import Idealize.ShloMosaic.Lib.Pipeline.Value
import Idealize.ShloMosaic.Lib.ValueIdx

noncomputable section

namespace Cert.KernelIdeal.Hand

open Cert.KernelIdeal Cert.KernelIdeal.Gen Cert.CallFeatures
open Idealize.ShloMosaic Idealize.ShloMosaic.ValueIdx

variable {F : FTy → Type} [FloatOps F]

/-- A slice one column wide, cut at column `o` from a block of 256 columns, holds at row `r` the block's entry in row `r`,
    column `o`. -/
theorem column_slice_apply (x0 : Vec F S10000x256 .f32) (o : Nat) (h : S10000x256.Slices ![0, o] S10000x1)
    (r : Fin 10000) (k : Fin 256) (hk : k.val = o) :
    extractStridedSlice S10000x1 ![0, o] x0 h (ix2 r (0 : Fin 1)) = x0 (ix2 r k) :=
  extractStridedSlice_apply _ x0 h _ _ fun a => match a with
    | ⟨0, _⟩ => show r.val = 0 + r.val from (Nat.zero_add _).symm
    | ⟨1, _⟩ => show k.val = o + 0 from hk

/-- Four columns laid side by side: row `r` of the result is the four columns' entries in row `r`, in order. -/
theorem side_by_side_apply (v0 v1 v2 v3 : FVec F S10000x1 .f32)
    (h : Shape.Concatenates (([⟨S10000x1, v0⟩, ⟨S10000x1, v1⟩, ⟨S10000x1, v2⟩, ⟨S10000x1, v3⟩] : List ((s : Shape) × (s.Idx → F .f32))).map (·.1)) S10000x4 (1 : Fin 2))
    (r : Fin 10000) :
    concatenate S10000x4 (1 : Fin 2) [⟨S10000x1, v0⟩, ⟨S10000x1, v1⟩, ⟨S10000x1, v2⟩, ⟨S10000x1, v3⟩] h (ix2 r (⟨0, by decide⟩ : Fin 4)) = v0 (ix2 r (0 : Fin 1))
    ∧ concatenate S10000x4 (1 : Fin 2) [⟨S10000x1, v0⟩, ⟨S10000x1, v1⟩, ⟨S10000x1, v2⟩, ⟨S10000x1, v3⟩] h (ix2 r (⟨1, by decide⟩ : Fin 4)) = v1 (ix2 r (0 : Fin 1))
    ∧ concatenate S10000x4 (1 : Fin 2) [⟨S10000x1, v0⟩, ⟨S10000x1, v1⟩, ⟨S10000x1, v2⟩, ⟨S10000x1, v3⟩] h (ix2 r (⟨2, by decide⟩ : Fin 4)) = v2 (ix2 r (0 : Fin 1))
    ∧ concatenate S10000x4 (1 : Fin 2) [⟨S10000x1, v0⟩, ⟨S10000x1, v1⟩, ⟨S10000x1, v2⟩, ⟨S10000x1, v3⟩] h (ix2 r (⟨3, by decide⟩ : Fin 4)) = v3 (ix2 r (0 : Fin 1)) :=
  ⟨(concatenate_apply_piece (t := S10000x4) (1 : Fin 2) ([⟨S10000x1, v0⟩, ⟨S10000x1, v1⟩, ⟨S10000x1, v2⟩, ⟨S10000x1, v3⟩] : List ((s : Shape) × (s.Idx → F .f32))) h (ix2 r (⟨0, by decide⟩ : Fin 4)) 0 (show 0 < 4 by decide) S10000x1 v0 rfl rfl 0 rfl (ix2 r (0 : Fin 1))
      (fun b => match b with | ⟨0, _⟩ => fun _ => rfl | ⟨1, _⟩ => fun hb => absurd rfl hb) rfl),
    (concatenate_apply_piece (t := S10000x4) (1 : Fin 2) ([⟨S10000x1, v0⟩, ⟨S10000x1, v1⟩, ⟨S10000x1, v2⟩, ⟨S10000x1, v3⟩] : List ((s : Shape) × (s.Idx → F .f32))) h (ix2 r (⟨1, by decide⟩ : Fin 4)) 1 (show 1 < 4 by decide) S10000x1 v1 rfl rfl 1 rfl (ix2 r (0 : Fin 1))
      (fun b => match b with | ⟨0, _⟩ => fun _ => rfl | ⟨1, _⟩ => fun hb => absurd rfl hb) rfl),
    (concatenate_apply_piece (t := S10000x4) (1 : Fin 2) ([⟨S10000x1, v0⟩, ⟨S10000x1, v1⟩, ⟨S10000x1, v2⟩, ⟨S10000x1, v3⟩] : List ((s : Shape) × (s.Idx → F .f32))) h (ix2 r (⟨2, by decide⟩ : Fin 4)) 2 (show 2 < 4 by decide) S10000x1 v2 rfl rfl 2 rfl (ix2 r (0 : Fin 1))
      (fun b => match b with | ⟨0, _⟩ => fun _ => rfl | ⟨1, _⟩ => fun hb => absurd rfl hb) rfl),
    (concatenate_apply_piece (t := S10000x4) (1 : Fin 2) ([⟨S10000x1, v0⟩, ⟨S10000x1, v1⟩, ⟨S10000x1, v2⟩, ⟨S10000x1, v3⟩] : List ((s : Shape) × (s.Idx → F .f32))) h (ix2 r (⟨3, by decide⟩ : Fin 4)) 3 (show 3 < 4 by decide) S10000x1 v3 rfl rfl 3 rfl (ix2 r (0 : Fin 1))
      (fun b => match b with | ⟨0, _⟩ => fun _ => rfl | ⟨1, _⟩ => fun hb => absurd rfl hb) rfl)⟩

/-- The stored block at `(r, q)` is the loaded block at `(r, col q)`. -/
theorem stored_apply (x0 : Vec F S10000x256 .f32) (r : Fin 10000) (q : Fin 4) :
    k0_pay1 x0 (ix2 r q) = x0 (ix2 r (col q)) := by
  unfold k0_pay1
  match q with
  | ⟨0, _⟩ => exact (side_by_side_apply _ _ _ _ _ r).1.trans (column_slice_apply x0 8 _ r _ rfl)
  | ⟨1, _⟩ => exact (side_by_side_apply _ _ _ _ _ r).2.1.trans (column_slice_apply x0 10 _ r _ rfl)
  | ⟨2, _⟩ => exact (side_by_side_apply _ _ _ _ _ r).2.2.1.trans (column_slice_apply x0 14 _ r _ rfl)
  | ⟨3, _⟩ => exact (side_by_side_apply _ _ _ _ _ r).2.2.2.trans (column_slice_apply x0 15 _ r _ rfl)

/-- The stored block is the matrix of the four kept columns of the loaded block. -/
theorem stored_eq (x0 : Vec F S10000x256 .f32) : k0_pay1 x0 = picked x0 := by
  funext j
  obtain ⟨r, q, rfl⟩ : ∃ (r : Fin 10000) (q : Fin 4), j = ix2 r q := ⟨j 0, j 1, eq_ix2 j⟩
  exact stored_apply x0 r q

end Cert.KernelIdeal.Hand

end
-- ==== Proof.KernelArray.lean ====
/-
  From blocks to the whole array. The grid has 100 points; at point `t` the kernel reads rows `10000 t … 10000 t + 9999` of
  the feature array (all 256 columns) and writes rows `10000 t … 10000 t + 9999` of its output (all 4 columns). The body
  stores the four kept columns of what it loaded, so what point `t` writes back is block `t` of ONE matrix: the four kept
  columns of the whole feature array. Row `n` of the output lies in the block of point `n / 10000`, so the 100 blocks
  cover the output, and after the region the output array is that matrix.
-/
import proofs.«125669_j81587198755028_1_alg».proof.Proof.Gen.KernelIdeal.Frame
import proofs.«125669_j81587198755028_1_alg».proof.Proof.KernelBlock
import Idealize.ShloMosaic.Lib.Pipeline.Value

noncomputable section

namespace Cert.KernelIdeal.Hand

open Cert.KernelIdeal Cert.KernelIdeal.Gen Cert.CallFeatures
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

theorem origin : (![0, 0] : Fin 2 → Nat) = fun _ => 0 := funext fun a => by fin_cases a <;> rfl

/-- At point `t` both windows are at block `t` along the rows and at the only block along the columns. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem point_lt (t : Fin cfg0.N) : t.val < 100 := lt_of_lt_of_eq t.isLt N_0

/-- The block of the feature array read at point `t`: its row `r` is row `10000 t + r` of the array. -/
theorem inblock_apply (c : Dev nD) (t : Fin cfg0.N) (r : Fin 10000) (k : Fin 256) (hn : 10000 * t.val + r.val < 1000000) :
    (iblk m c 0 t : Vec F S10000x256 .f32) (ix2 r k)
      = (m ((c : Thread nD τ).loc main_arg0) : S1000000x256.Idx → Elt F .f32) (ix2 ⟨10000 * t.val + r.val, hn⟩ k) := by
  obtain ⟨e0, e1, -, -⟩ := block_index t
  unfold iblk
  rw [View.read_apply]
  show V m c main_arg0 (((cfg0.win 0).blk t).view.emb (ix2 r k)) = V m c main_arg0 (ix2 ⟨10000 * t.val + r.val, hn⟩ k)
  refine congrArg (V m c main_arg0) (funext fun a => Fin.ext ?_)
  match a with
  | ⟨0, _⟩ => show win0_0.index t (0 : Fin 2) * 10000 + 1 * r.val = 10000 * t.val + r.val; rw [e0]; omega
  | ⟨1, _⟩ => show win0_0.index t (1 : Fin 2) * 256 + 1 * k.val = k.val; rw [e1]; omega

/-- The block of the output written at point `t`: its row `r` is row `10000 t + r` of the output. -/
theorem outblock_emb (t : Fin cfg0.N) (r : Fin 10000) (q : Fin 4) (hn : 10000 * t.val + r.val < 1000000) :
    ((cfg0.win 1).blk t).view.emb (ix2 r q) = (ix2 ⟨10000 * t.val + r.val, hn⟩ q : S1000000x4.Idx) := by
  obtain ⟨-, -, e2, e3⟩ := block_index t
  funext a
  apply Fin.ext
  match a with
  | ⟨0, _⟩ => show win0_1.index t (0 : Fin 2) * 10000 + 1 * r.val = 10000 * t.val + r.val; rw [e2]; omega
  | ⟨1, _⟩ => show win0_1.index t (1 : Fin 2) * 4 + 1 * q.val = q.val; rw [e3]; omega

/-- What point `t` writes back is block `t` of the four kept columns of the feature array. -/
theorem written_back (c : Dev nD) (t : Fin cfg0.N) :
    (dats m 0 c).flushed 1 t
      = ((cfg0.win 1).blk t).view.read (Elt F)
          (picked (m ((c : Thread nD τ).loc main_arg0) : S1000000x256.Idx → Elt F .f32)) := by
  show (cfg0.win 1).cut (grid0.coords t) ((dats m 0 c).after 1 t) = _
  rw [after0_1]
  unfold out0_1
  rw [View.canon_unit_zero origin]
  simp only [View.ld_unit_zero (S := S10000x256) origin]
  rw [stored_eq]
  funext j
  obtain ⟨r, q, rfl⟩ : ∃ (r : Fin 10000) (q : Fin 4), j = ix2 r q := ⟨j 0, j 1, eq_ix2 j⟩
  have hn : 10000 * t.val + r.val < 1000000 := by have := point_lt t; omega
  show picked (iblk m c 0 t : Vec F S10000x256 .f32) (ix2 r q)
    = picked (m ((c : Thread nD τ).loc main_arg0) : S1000000x256.Idx → Elt F .f32) (((cfg0.win 1).blk t).view.emb (ix2 r q))
  rw [outblock_emb t r q hn, picked_apply, picked_apply]
  exact inblock_apply m c t r (col q) hn

/-- An index of the output is in point `t`'s block iff each coordinate is in the block's range on its axis. -/
theorem mem_outblock (t : Fin cfg0.N) (i : S1000000x4.Idx) :
    i ∈ ((cfg0.win 1).blk t).view.set ↔ ∀ a : Fin 2, win0_1.index t a * S10000x4.size a ≤ (i a).val
      ∧ (i a).val < win0_1.index t a * S10000x4.size a + S10000x4.size a := by
  show i ∈ ((View.whole main_v0).slice (win0_1.rect t)).set ↔ _
  rw [View.set_slice_whole, Rect.mem_set_unit]
  exact Iff.rfl

/-- Every index of the output is in the block of some point: row `n` in that of point `n / 10000`. -/
theorem covered (i : S1000000x4.Idx) :
    ∃ t : Fin cfg0.N, (cfg0.win 1).flush t = true ∧ i ∈ ((cfg0.win 1).blk t).view.set := by
  have hi0 : (i 0).val < 1000000 := idx2_lt0 i
  have hi1 : (i 1).val < 4 := idx2_lt1 i
  obtain ⟨t, ht⟩ : ∃ t : Fin cfg0.N, t.val = (i 0).val / 10000 :=
    ⟨⟨(i 0).val / 10000, by rw [show cfg0.N = 100 from N_0]; omega⟩, rfl⟩
  obtain ⟨-, -, e2, e3⟩ := block_index t
  refine ⟨t, flush0_1 t, ?_⟩
  rw [mem_outblock]
  intro a
  match a with
  | ⟨0, _⟩ =>
    show win0_1.index t (0 : Fin 2) * 10000 ≤ (i 0).val ∧ (i 0).val < win0_1.index t (0 : Fin 2) * 10000 + 10000
    rw [e2, ht]; omega
  | ⟨1, _⟩ =>
    show win0_1.index t (1 : Fin 2) * 4 ≤ (i 1).val ∧ (i 1).val < win0_1.index t (1 : Fin 2) * 4 + 4
    rw [e3]; omega

/-- After the region the output array is the four kept columns of the feature array. -/
theorem output_eq (c : Dev nD) :
    (dats m 0 c).arrAt 1 cfg0.N = picked (m ((c : Thread nD τ).loc main_arg0) : S1000000x256.Idx → Elt F .f32) :=
  (dats m 0 c).arrAt_eq_of_cover 1 _ (fun t _ => written_back m c t) covered

end Cert.KernelIdeal.Hand

end
-- ==== Proof.Tail.lean ====
/-
  What both programs compute from the matrix of the four kept columns. With `g n` the graph of node `n`:

    sums  (b, q) = Σ over the nodes n of graph b of  cf (n, q)          (an accumulating scatter into zeros)
    count  b     = the number of nodes of graph b                         (the same scatter of ones)
    mean  (b, q) = sums (b, q) / max (count b) 1
    h1 = max (mean · W1 + β1) 0,   h2 = max (h1 · W2 + β2) 0,   z = h2 · W3 + β3
    score b = 1 / (1 + exp (− z b)),   and the result at b is  score b  if  count b > 0,  else 0.

  It is written once, as a function of the matrix `cf`, the graph ids and the six parameter arrays, in the very operations
  the two programs apply, and it is never opened: the two programs are compared by showing that they feed it the same
  matrix.
-/
import proofs.«125669_j81587198755028_1_alg».proof.Proof.Gen.KernelIdeal

noncomputable section

namespace Cert.KernelIdeal.Hand

open Cert.KernelIdeal Cert.KernelIdeal.Gen Idealize.ShloMosaic

variable {F : FTy → Type} [FloatOps F]

/-- The number of nodes of each graph: ones accumulated at the nodes' graph ids. -/
def counts (seg : Vec F S1000000 .i32) : Vec F S4096 .f32 :=
  Host.scatterAdd scatter_S4096_S1000000x1_S1000000_n_0_0_1
    (broadcastInDim S4096 ![] bcast_S_S4096 (constant S_ .f32 0x00000000#32))
    (broadcastInDim S1000000x1 ![0] bcast_S1000000_S1000000x1_0 seg)
    (broadcastInDim S1000000 ![] bcast_S_S1000000 (constant S_ .f32 0x3F800000#32))

/-- The mean of each kept feature over each graph's nodes: the rows accumulated at the nodes' graph ids, divided by the
    number of nodes, or by one for a graph without nodes. -/
def means (cf : Vec F S1000000x4 .f32) (seg : Vec F S1000000 .i32) : Vec F S4096x4 .f32 :=
  Host.divf
    (Host.scatterAdd scatter_S4096x4_S1000000x1_S1000000x4_1_0_0_1
      (broadcastInDim S4096x4 ![] bcast_S_S4096x4 (constant S_ .f32 0x00000000#32))
      (broadcastInDim S1000000x1 ![0] bcast_S1000000_S1000000x1_0 seg)
      cf)
    (broadcastInDim S4096x4 ![0, 1] bcast_S4096x1_S4096x4_0_1
      (broadcastInDim S4096x1 ![0] bcast_S4096_S4096x1_0
        (maximumf (counts seg) (broadcastInDim S4096 ![] bcast_S_S4096 (constant S_ .f32 0x3F800000#32)))))

/-- The first dense layer with its rectifier: 4 features to 64. -/
def layer1 (x : Vec F S4096x4 .f32) (w : Vec F S4x64 .f32) (β : Vec F S64 .f32) : Vec F S4096x64 .f32 :=
  maximumf
    (addf (Host.dotGeneral dot_S4096x4_S4x64_S4096x64_1_0_0_1_n_n none x w)
      (broadcastInDim S4096x64 ![0, 1] bcast_S1x64_S4096x64_0_1 (broadcastInDim S1x64 ![1] bcast_S64_S1x64_1 β)))
    (broadcastInDim S4096x64 ![] bcast_S_S4096x64 (constant S_ .f32 0x00000000#32))

/-- The second dense layer with its rectifier: 64 to 32. -/
def layer2 (x : Vec F S4096x64 .f32) (w : Vec F S64x32 .f32) (β : Vec F S32 .f32) : Vec F S4096x32 .f32 :=
  maximumf
    (addf (Host.dotGeneral dot_S4096x64_S64x32_S4096x32_1_0_0_1_n_n none x w)
      (broadcastInDim S4096x32 ![0, 1] bcast_S1x32_S4096x32_0_1 (broadcastInDim S1x32 ![1] bcast_S32_S1x32_1 β)))
    (broadcastInDim S4096x32 ![] bcast_S_S4096x32 (constant S_ .f32 0x00000000#32))

/-- The last dense layer, 32 to 1, and the logistic function of its value, as a vector over the graphs. -/
def score (x : Vec F S4096x32 .f32) (w : Vec F S32x1 .f32) (β : Vec F S1 .f32) : Vec F S4096 .f32 := fun i =>
  shapeCast S4096
    (Host.divf (broadcastInDim S4096x1 ![] bcast_S_S4096x1 (constant S_ .f32 0x3F800000#32))
      (addf (broadcastInDim S4096x1 ![] bcast_S_S4096x1 (constant S_ .f32 0x3F800000#32))
        (Host.exp (Host.negf
          (addf (Host.dotGeneral dot_S4096x32_S32x1_S4096x1_1_0_0_1_n_n none x w)
            (broadcastInDim S4096x1 ![0, 1] bcast_S1x1_S4096x1_0_1 (broadcastInDim S1x1 ![1] bcast_S1_S1x1_1 β)))))))
    shapeCasts_S4096x1_S4096 i

/-- The whole computation after the four columns are taken: each graph's score, and zero for a graph without nodes. -/
def pooledScore (cf : Vec F S1000000x4 .f32) (seg : Vec F S1000000 .i32) (w1 : Vec F S4x64 .f32) (β1 : Vec F S64 .f32)
    (w2 : Vec F S64x32 .f32) (β2 : Vec F S32 .f32) (w3 : Vec F S32x1 .f32) (β3 : Vec F S1 .f32) : Vec F S4096 .f32 :=
  select (cmpf .ogt (counts seg) (broadcastInDim S4096 ![] bcast_S_S4096 (constant S_ .f32 0x00000000#32)))
    (score (layer2 (layer1 (means cf seg) w1 β1) w2 β2) w3 β3)
    (broadcastInDim S4096 ![] bcast_S_S4096 (constant S_ .f32 0x00000000#32))

end Cert.KernelIdeal.Hand

end
-- ==== Proof.KernelRun.lean ====
/-
  The kernel's program, run. After the region the output array holds the four kept columns of the feature array and no
  other buffer has changed; the host operations that follow read that array, the graph ids and the six parameter arrays
  and leave, in the result buffer, the pooled score of exactly these. None of them writes an argument array.
-/
import proofs.«125669_j81587198755028_1_alg».proof.Proof.KernelArray
import proofs.«125669_j81587198755028_1_alg».proof.Proof.Tail
import Idealize.ShloMosaic.Lib.StableHlo.Run

noncomputable section

namespace Cert.KernelIdeal.Hand

open Cert.KernelIdeal Cert.KernelIdeal.Gen Cert.CallFeatures
open Idealize.ShloMosaic Idealize.ShloMosaic.TcCoe Idealize.ShloMosaic.ValueIdx Idealize.SL.Sem Idealize.ShloMosaic.StableHlo
open Idealize.ShloMosaic.Pipeline (Dat)

variable {F : FTy → Type} [FloatOps F]

set_option maxHeartbeats 4000000 in
/-- The host operations after the region, run from any contents of the buffers, leave the result buffer at the pooled
    score of the region's output array, the graph ids and the parameter arrays as those contents have them. -/
theorem after_region (V : Valuation τ sig (Elt F)) :
    after (List.flatten [hostOps1, hostOps1_1, hostOps1_2, hostOps1_3, hostOps1_4, hostOps1_5]) V (Proc.devRef .tc main_v36)
      = pooledScore (V (Proc.devRef .tc main_v0)) (V (Proc.devRef .tc main_arg1)) (V (Proc.devRef .tc main_arg3))
          (V (Proc.devRef .tc main_arg4)) (V (Proc.devRef .tc main_arg5)) (V (Proc.devRef .tc main_arg6))
          (V (Proc.devRef .tc main_arg7)) (V (Proc.devRef .tc main_arg8)) := by
  simp only [hostOps1, hostOps1_1, hostOps1_2, hostOps1_3, hostOps1_4, hostOps1_5, List.flatten_cons, List.flatten_nil,
    List.append_nil, List.cons_append, List.nil_append]
  after_results_simp
  rfl

variable (m : (ℓ : Loc nD τ sig) → Buf (Elt F) ℓ) (ρ : Dev nD → PrngReg)

/-- The same from contents that hold the four kept columns in the region's output array and the arguments as launched. -/
theorem after_region_of (c : Dev nD) (W : Valuation τ sig (Elt F))
    (h0 : W (Proc.devRef .tc main_v0) = (picked (m ((c.tc : Thread nD τ).loc main_arg0) : S1000000x256.Idx → Elt F .f32)))
    (h1 : W (Proc.devRef .tc main_arg1) = m ((c.tc : Thread nD τ).loc main_arg1))
    (h3 : W (Proc.devRef .tc main_arg3) = m ((c.tc : Thread nD τ).loc main_arg3))
    (h4 : W (Proc.devRef .tc main_arg4) = m ((c.tc : Thread nD τ).loc main_arg4))
    (h5 : W (Proc.devRef .tc main_arg5) = m ((c.tc : Thread nD τ).loc main_arg5))
    (h6 : W (Proc.devRef .tc main_arg6) = m ((c.tc : Thread nD τ).loc main_arg6))
    (h7 : W (Proc.devRef .tc main_arg7) = m ((c.tc : Thread nD τ).loc main_arg7))
    (h8 : W (Proc.devRef .tc main_arg8) = m ((c.tc : Thread nD τ).loc main_arg8)) :
    after (List.flatten [hostOps1, hostOps1_1, hostOps1_2, hostOps1_3, hostOps1_4, hostOps1_5]) W (Proc.devRef .tc main_v36)
      = pooledScore (picked (m ((c.tc : Thread nD τ).loc main_arg0) : S1000000x256.Idx → Elt F .f32)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [after_region, h0, h1, h3, h4, h5, h6, h7, h8]

/-- The result buffer after the whole program. -/
theorem result_eq (c : Dev nD) :
    Pipeline.afterTail₀ cfgs (dats m) 0 (V0 m) [hostOps1, hostOps1_1, hostOps1_2, hostOps1_3, hostOps1_4, hostOps1_5] c main_v36
      = pooledScore (picked (m ((c.tc : Thread nD τ).loc main_arg0) : S1000000x256.Idx → Elt F .f32)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  exact after_region_of m c _
    ((Pipeline.withArrays_arr spec0 launch0.win.arr_inj c _ _ 1).trans (output_eq m c))
    ((Pipeline.withArrays_of_ne _ c (V0 m c) _ main_arg1 (by exact (by decide : ∀ w, Pipeline.arrRef spec0 w ≠ main_arg1))).trans (V_main_arg1 m c))
    ((Pipeline.withArrays_of_ne _ c (V0 m c) _ main_arg3 (by exact (by decide : ∀ w, Pipeline.arrRef spec0 w ≠ main_arg3))).trans (V_main_arg3 m c))
    ((Pipeline.withArrays_of_ne _ c (V0 m c) _ main_arg4 (by exact (by decide : ∀ w, Pipeline.arrRef spec0 w ≠ main_arg4))).trans (V_main_arg4 m c))
    ((Pipeline.withArrays_of_ne _ c (V0 m c) _ main_arg5 (by exact (by decide : ∀ w, Pipeline.arrRef spec0 w ≠ main_arg5))).trans (V_main_arg5 m c))
    ((Pipeline.withArrays_of_ne _ c (V0 m c) _ main_arg6 (by exact (by decide : ∀ w, Pipeline.arrRef spec0 w ≠ main_arg6))).trans (V_main_arg6 m c))
    ((Pipeline.withArrays_of_ne _ c (V0 m c) _ main_arg7 (by exact (by decide : ∀ w, Pipeline.arrRef spec0 w ≠ main_arg7))).trans (V_main_arg7 m c))
    ((Pipeline.withArrays_of_ne _ c (V0 m c) _ main_arg8 (by exact (by decide : ∀ w, Pipeline.arrRef spec0 w ≠ main_arg8))).trans (V_main_arg8 m c))

/-- Every weakly fair execution of the kernel's program terminates with the result buffer at the pooled score of the four
    kept columns of the feature array, and with the argument arrays as launched. -/
theorem run : θ_run defs (onTc (τ := τ) (main (F := F))) ⟨m, fun _ => 0, ρ⟩ fun r => ∀ c : Dev nD,
      r.2.mem ((c.tc : Thread nD τ).loc main_v36) = pooledScore (picked (m ((c.tc : Thread nD τ).loc main_arg0) : S1000000x256.Idx → Elt F .f32)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v36 (Pipeline.mem_restRefs_of main_v36 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Hand

end
-- ==== Proof.RefRun.lean ====
/-
  The reference program as a straight line. Its @main is fifty-nine array operations in a row once the three small
  functions it calls (the two rectifiers and the final choice between the score and zero) are written out at their
  calls over the buffers of those calls: ten operations that prepare the four column numbers and take the columns, then
  the accumulating scatters, the means, the three dense layers, the logistic and the mask. Run in order from any
  memory, every buffer ends at the value the operations give it from the argument arrays; no operation writes an
  argument array.
-/
import proofs.«125669_j81587198755028_1_alg».proof.Proof.Gen.ReferenceIdeal
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- @main's operations in order, the three called functions written out at their calls. -/
abbrev ops : List (HloOp τ sig (Elt F)) :=
  [ StableHlo.nullary main_c (fun i => lit0 (S4.rowMajor i)),
    StableHlo.nullary main_c_0 (constantI S_ 32 0#32),
    StableHlo.unary main_c_0 main_v0 (broadcastInDim S4 ![] bcast_S_S4 : (⟨S_, .i32⟩ : BufTy).Contents (Elt F) → (⟨S4, .i32⟩ : BufTy).Contents (Elt F)),
    StableHlo.binary main_c main_v0 main_v1 (cmpi .slt : (⟨S4, .i32⟩ : BufTy).Contents (Elt F) → (⟨S4, .i32⟩ : BufTy).Contents (Elt F) → (⟨S4, .i1⟩ : BufTy).Contents (Elt F)),
    StableHlo.nullary main_c_1 (constantI S_ 32 256#32),
    StableHlo.unary main_c_1 main_v2 (broadcastInDim S4 ![] bcast_S_S4 : (⟨S_, .i32⟩ : BufTy).Contents (Elt F) → (⟨S4, .i32⟩ : BufTy).Contents (Elt F)),
    StableHlo.binary main_c main_v2 main_v3 (addi : (⟨S4, .i32⟩ : BufTy).Contents (Elt F) → (⟨S4, .i32⟩ : BufTy).Contents (Elt F) → (⟨S4, .i32⟩ : BufTy).Contents (Elt F)),
    StableHlo.ternary main_v1 main_v3 main_c main_v4 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v4 main_v5 (broadcastInDim S4x1 ![0] bcast_S4_S4x1_0 : (⟨S4, .i32⟩ : BufTy).Contents (Elt F) → (⟨S4x1, .i32⟩ : BufTy).Contents (Elt F)),
    StableHlo.binary main_arg0 main_v5 main_v6 ((fun x i => Host.gather gather_S1000000x256_S4x1_S1000000x4_0_1_n_n_1_1_10000001 x i) : (⟨S1000000x256, .f32⟩ : BufTy).Contents (Elt F) → (⟨S4x1, .i32⟩ : BufTy).Contents (Elt F) → (⟨S1000000x4, .f32⟩ : BufTy).Contents (Elt F)),
    StableHlo.nullary main_cst (constant S_ .f32 0x00000000#32),
    StableHlo.unary main_cst main_v7 (broadcastInDim S4096x4 ![] bcast_S_S4096x4 : (⟨S_, .f32⟩ : BufTy).Contents (Elt F) → (⟨S4096x4, .f32⟩ : BufTy).Contents (Elt F)),
    StableHlo.unary main_arg1 main_v8 (broadcastInDim S1000000x1 ![0] bcast_S1000000_S1000000x1_0 : (⟨S1000000, .i32⟩ : BufTy).Contents (Elt F) → (⟨S1000000x1, .i32⟩ : BufTy).Contents (Elt F)),
    StableHlo.ternary main_v7 main_v8 main_v6 main_v9 ((fun x i u => Host.scatterAdd scatter_S4096x4_S1000000x1_S1000000x4_1_0_0_1 x i u) : (⟨S4096x4, .f32⟩ : BufTy).Contents (Elt F) → (⟨S1000000x1, .i32⟩ : BufTy).Contents (Elt F) → (⟨S1000000x4, .f32⟩ : BufTy).Contents (Elt F) → (⟨S4096x4, .f32⟩ : BufTy).Contents (Elt F)),
    StableHlo.nullary main_cst_2 (constant S_ .f32 0x3F800000#32),
    StableHlo.unary main_cst_2 main_v10 (broadcastInDim S1000000 ![] bcast_S_S1000000 : (⟨S_, .f32⟩ : BufTy).Contents (Elt F) → (⟨S1000000, .f32⟩ : BufTy).Contents (Elt F)),
    StableHlo.nullary main_cst_3 (constant S_ .f32 0x00000000#32),
    StableHlo.unary main_cst_3 main_v11 (broadcastInDim S4096 ![] bcast_S_S4096 : (⟨S_, .f32⟩ : BufTy).Contents (Elt F) → (⟨S4096, .f32⟩ : BufTy).Contents (Elt F)),
    StableHlo.unary main_arg1 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S4096_S1000000x1_S1000000_n_0_0_1 x i u) : (⟨S4096, .f32⟩ : BufTy).Contents (Elt F) → (⟨S1000000x1, .i32⟩ : BufTy).Contents (Elt F) → (⟨S1000000, .f32⟩ : BufTy).Contents (Elt F) → (⟨S4096, .f32⟩ : BufTy).Contents (Elt F)),
    StableHlo.nullary main_cst_4 (constant S_ .f32 0x3F800000#32),
    StableHlo.unary main_cst_4 main_v14 (broadcastInDim S4096 ![] bcast_S_S4096 : (⟨S_, .f32⟩ : BufTy).Contents (Elt F) → (⟨S4096, .f32⟩ : BufTy).Contents (Elt F)),
    StableHlo.binary main_v13 main_v14 main_v15 (maximumf : (⟨S4096, .f32⟩ : BufTy).Contents (Elt F) → (⟨S4096, .f32⟩ : BufTy).Contents (Elt F) → (⟨S4096, .f32⟩ : BufTy).Contents (Elt F)),
    StableHlo.unary main_v15 main_v16 (broadcastInDim S4096x1 ![0] bcast_S4096_S4096x1_0 : (⟨S4096, .f32⟩ : BufTy).Contents (Elt F) → (⟨S4096x1, .f32⟩ : BufTy).Contents (Elt F)),
    StableHlo.unary main_v16 main_v17 (broadcastInDim S4096x4 ![0, 1] bcast_S4096x1_S4096x4_0_1 : (⟨S4096x1, .f32⟩ : BufTy).Contents (Elt F) → (⟨S4096x4, .f32⟩ : BufTy).Contents (Elt F)),
    StableHlo.binary main_v9 main_v17 main_v18 (Host.divf : (⟨S4096x4, .f32⟩ : BufTy).Contents (Elt F) → (⟨S4096x4, .f32⟩ : BufTy).Contents (Elt F) → (⟨S4096x4, .f32⟩ : BufTy).Contents (Elt F)),
    StableHlo.binary main_v18 main_arg3 main_v19 ((fun l r => Host.dotGeneral dot_S4096x4_S4x64_S4096x64_1_0_0_1_n_n none l r) : (⟨S4096x4, .f32⟩ : BufTy).Contents (Elt F) → (⟨S4x64, .f32⟩ : BufTy).Contents (Elt F) → (⟨S4096x64, .f32⟩ : BufTy).Contents (Elt F)),
    StableHlo.unary main_arg4 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S4096x64 ![0, 1] bcast_S1x64_S4096x64_0_1 : (⟨S1x64, .f32⟩ : BufTy).Contents (Elt F) → (⟨S4096x64, .f32⟩ : BufTy).Contents (Elt F)),
    StableHlo.binary main_v19 main_v21 main_v22 (addf : (⟨S4096x64, .f32⟩ : BufTy).Contents (Elt F) → (⟨S4096x64, .f32⟩ : BufTy).Contents (Elt F) → (⟨S4096x64, .f32⟩ : BufTy).Contents (Elt F)),
    StableHlo.TRef.nullary main_call0.cst (constant S_ .f32 0x00000000#32),
    StableHlo.TRef.unary main_call0.cst main_call0.v0 (broadcastInDim S4096x64 ![] bcast_S_S4096x64),
    StableHlo.TRef.binary (.of main_v22 : StableHlo.TRef sig ⟨S4096x64, .f32⟩) main_call0.v0 main_call0.v1 maximumf,
    StableHlo.binary main_v23 main_arg5 main_v24 ((fun l r => Host.dotGeneral dot_S4096x64_S64x32_S4096x32_1_0_0_1_n_n none l r) : (⟨S4096x64, .f32⟩ : BufTy).Contents (Elt F) → (⟨S64x32, .f32⟩ : BufTy).Contents (Elt F) → (⟨S4096x32, .f32⟩ : BufTy).Contents (Elt F)),
    StableHlo.unary main_arg6 main_v25 (broadcastInDim S1x32 ![1] bcast_S32_S1x32_1 : (⟨S32, .f32⟩ : BufTy).Contents (Elt F) → (⟨S1x32, .f32⟩ : BufTy).Contents (Elt F)),
    StableHlo.unary main_v25 main_v26 (broadcastInDim S4096x32 ![0, 1] bcast_S1x32_S4096x32_0_1 : (⟨S1x32, .f32⟩ : BufTy).Contents (Elt F) → (⟨S4096x32, .f32⟩ : BufTy).Contents (Elt F)),
    StableHlo.binary main_v24 main_v26 main_v27 (addf : (⟨S4096x32, .f32⟩ : BufTy).Contents (Elt F) → (⟨S4096x32, .f32⟩ : BufTy).Contents (Elt F) → (⟨S4096x32, .f32⟩ : BufTy).Contents (Elt F)),
    StableHlo.TRef.nullary main_call1.cst (constant S_ .f32 0x00000000#32),
    StableHlo.TRef.unary main_call1.cst main_call1.v0 (broadcastInDim S4096x32 ![] bcast_S_S4096x32),
    StableHlo.TRef.binary (.of main_v27 : StableHlo.TRef sig ⟨S4096x32, .f32⟩) main_call1.v0 main_call1.v1 maximumf,
    StableHlo.binary main_v28 main_arg7 main_v29 ((fun l r => Host.dotGeneral dot_S4096x32_S32x1_S4096x1_1_0_0_1_n_n none l r) : (⟨S4096x32, .f32⟩ : BufTy).Contents (Elt F) → (⟨S32x1, .f32⟩ : BufTy).Contents (Elt F) → (⟨S4096x1, .f32⟩ : BufTy).Contents (Elt F)),
    StableHlo.unary main_arg8 main_v30 (broadcastInDim S1x1 ![1] bcast_S1_S1x1_1 : (⟨S1, .f32⟩ : BufTy).Contents (Elt F) → (⟨S1x1, .f32⟩ : BufTy).Contents (Elt F)),
    StableHlo.unary main_v30 main_v31 (broadcastInDim S4096x1 ![0, 1] bcast_S1x1_S4096x1_0_1 : (⟨S1x1, .f32⟩ : BufTy).Contents (Elt F) → (⟨S4096x1, .f32⟩ : BufTy).Contents (Elt F)),
    StableHlo.binary main_v29 main_v31 main_v32 (addf : (⟨S4096x1, .f32⟩ : BufTy).Contents (Elt F) → (⟨S4096x1, .f32⟩ : BufTy).Contents (Elt F) → (⟨S4096x1, .f32⟩ : BufTy).Contents (Elt F)),
    StableHlo.unary main_v32 main_v33 (Host.negf : (⟨S4096x1, .f32⟩ : BufTy).Contents (Elt F) → (⟨S4096x1, .f32⟩ : BufTy).Contents (Elt F)),
    StableHlo.unary main_v33 main_v34 (Host.exp : (⟨S4096x1, .f32⟩ : BufTy).Contents (Elt F) → (⟨S4096x1, .f32⟩ : BufTy).Contents (Elt F)),
    StableHlo.nullary main_cst_5 (constant S_ .f32 0x3F800000#32),
    StableHlo.unary main_cst_5 main_v35 (broadcastInDim S4096x1 ![] bcast_S_S4096x1 : (⟨S_, .f32⟩ : BufTy).Contents (Elt F) → (⟨S4096x1, .f32⟩ : BufTy).Contents (Elt F)),
    StableHlo.binary main_v35 main_v34 main_v36 (addf : (⟨S4096x1, .f32⟩ : BufTy).Contents (Elt F) → (⟨S4096x1, .f32⟩ : BufTy).Contents (Elt F) → (⟨S4096x1, .f32⟩ : BufTy).Contents (Elt F)),
    StableHlo.nullary main_cst_6 (constant S_ .f32 0x3F800000#32),
    StableHlo.unary main_cst_6 main_v37 (broadcastInDim S4096x1 ![] bcast_S_S4096x1 : (⟨S_, .f32⟩ : BufTy).Contents (Elt F) → (⟨S4096x1, .f32⟩ : BufTy).Contents (Elt F)),
    StableHlo.binary main_v37 main_v36 main_v38 (Host.divf : (⟨S4096x1, .f32⟩ : BufTy).Contents (Elt F) → (⟨S4096x1, .f32⟩ : BufTy).Contents (Elt F) → (⟨S4096x1, .f32⟩ : BufTy).Contents (Elt F)),
    StableHlo.reshape main_v38 main_v39 rfl shapeCasts_S4096x1_S4096,
    StableHlo.nullary main_cst_7 (constant S_ .f32 0x00000000#32),
    StableHlo.unary main_cst_7 main_v40 (broadcastInDim S4096 ![] bcast_S_S4096 : (⟨S_, .f32⟩ : BufTy).Contents (Elt F) → (⟨S4096, .f32⟩ : BufTy).Contents (Elt F)),
    StableHlo.binary main_v13 main_v40 main_v41 (cmpf .ogt : (⟨S4096, .f32⟩ : BufTy).Contents (Elt F) → (⟨S4096, .f32⟩ : BufTy).Contents (Elt F) → (⟨S4096, .i1⟩ : BufTy).Contents (Elt F)),
    StableHlo.nullary main_cst_8 (constant S_ .f32 0x00000000#32),
    StableHlo.TRef.unary (.of main_cst_8 : StableHlo.TRef sig ⟨S_, .f32⟩) main_call2.v0 (broadcastInDim S4096 ![] bcast_S_S4096),
    StableHlo.TRef.ternary (.of main_v41 : StableHlo.TRef sig ⟨S4096, .i1⟩) (.of main_v39 : StableHlo.TRef sig ⟨S4096, .f32⟩) main_call2.v0 main_call2.v1 select ]

-- fifty-nine binds re-associated: the rewrite under the chain recurses once per statement
set_option maxRecDepth 4096 in
/-- @main is that straight line: the called functions unfolded at their calls, sequencing re-associated. -/
theorem main_eq (c : Dev nD) : main (F := F) c = seq ops := by
  simp only [main, fn_relu.body, fn_relu_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., reshape_bufs_sub .., nullary_bufs_sub ..,
    unary_bufs_sub .., binary_bufs_sub .., nullary_bufs_sub .., unary_bufs_sub .., ternary_bufs_sub ..⟩

/-- From any memory with zero counters every weakly fair execution of @main terminates, and every buffer ends at the
    operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefKept.lean ====
/-
  No operation of the reference writes an argument array: each of the nine ends as it was launched.
-/
import proofs.«125669_j81587198755028_1_alg».proof.Proof.RefRun

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 4000000 in
theorem kept_arg0 (V : Valuation τ sig (Elt F)) :
    after ops V (Proc.devRef .tc main_arg0) = V (Proc.devRef .tc main_arg0) := by
  after_results_simp

set_option maxHeartbeats 4000000 in
theorem kept_arg1 (V : Valuation τ sig (Elt F)) :
    after ops V (Proc.devRef .tc main_arg1) = V (Proc.devRef .tc main_arg1) := by
  after_results_simp

set_option maxHeartbeats 4000000 in
theorem kept_arg2 (V : Valuation τ sig (Elt F)) :
    after ops V (Proc.devRef .tc main_arg2) = V (Proc.devRef .tc main_arg2) := by
  after_results_simp

set_option maxHeartbeats 4000000 in
theorem kept_arg3 (V : Valuation τ sig (Elt F)) :
    after ops V (Proc.devRef .tc main_arg3) = V (Proc.devRef .tc main_arg3) := by
  after_results_simp

set_option maxHeartbeats 4000000 in
theorem kept_arg4 (V : Valuation τ sig (Elt F)) :
    after ops V (Proc.devRef .tc main_arg4) = V (Proc.devRef .tc main_arg4) := by
  after_results_simp

set_option maxHeartbeats 4000000 in
theorem kept_arg5 (V : Valuation τ sig (Elt F)) :
    after ops V (Proc.devRef .tc main_arg5) = V (Proc.devRef .tc main_arg5) := by
  after_results_simp

set_option maxHeartbeats 4000000 in
theorem kept_arg6 (V : Valuation τ sig (Elt F)) :
    after ops V (Proc.devRef .tc main_arg6) = V (Proc.devRef .tc main_arg6) := by
  after_results_simp

set_option maxHeartbeats 4000000 in
theorem kept_arg7 (V : Valuation τ sig (Elt F)) :
    after ops V (Proc.devRef .tc main_arg7) = V (Proc.devRef .tc main_arg7) := by
  after_results_simp

set_option maxHeartbeats 4000000 in
theorem kept_arg8 (V : Valuation τ sig (Elt F)) :
    after ops V (Proc.devRef .tc main_arg8) = V (Proc.devRef .tc main_arg8) := by
  after_results_simp

end Cert.ReferenceIdeal.Hand

end
-- ==== Proof.RefColumns.lean ====
/-
  The reference takes the four columns by a gather. Its start indices are the four column numbers 8, 10, 14, 15, each
  replaced by itself plus 256 if it were negative (none is), stood up as a column of four. The gather reads whole columns:
  along the rows nothing is indexed, so row `n` of the result comes from row `n` of the operand; along the columns the
  slice is one wide and starts at the start index, clamped into 0 … 255, which leaves 8, 10, 14 and 15 as they are. So
  the gathered matrix at `(n, q)` is the operand at `(n, col q)`: the matrix of the four kept columns.
-/
import proofs.«125669_j81587198755028_1_alg».proof.Proof.Gen.ReferenceIdeal
import proofs.«125669_j81587198755028_1_alg».proof.Proof.Columns
import Idealize.ShloMosaic.Lib.ValueIdx

noncomputable section

namespace Cert.ReferenceIdeal.Hand

open Cert.ReferenceIdeal Cert.ReferenceIdeal.Gen Cert.CallFeatures
open Idealize.ShloMosaic Idealize.ShloMosaic.ValueIdx

/-- The start indices as the reference computes them. -/
def keptStart : IVec S4x1 32 :=
  broadcastInDim S4x1 ![0] bcast_S4_S4x1_0
    (select
      (cmpi CmpIPredicate.slt (fun i => lit0 (S4.rowMajor i)) (broadcastInDim S4 ![] bcast_S_S4 (constantI S_ 32 0#32)))
      (addi (fun i => lit0 (S4.rowMajor i)) (broadcastInDim S4 ![] bcast_S_S4 (constantI S_ 32 256#32)))
      fun i => lit0 (S4.rowMajor i))

local notation "𝔤" => gather_S1000000x256_S4x1_S1000000x4_0_1_n_n_1_1_10000001

/-- Along the rows the gather indexes nothing: the operand's row is the result's row. -/
theorem gather_row (n : Fin 1000000) (q : Fin 4) :
    (𝔤).start (ix2 n q) keptStart (0 : Fin 2) + (𝔤).batchCoord (ix2 n q) (0 : Fin 2) + (𝔤).offCoord (ix2 n q) (0 : Fin 2) = n.val := by
  have hs : (𝔤).start (ix2 n q) keptStart (0 : Fin 2) = 0 := by
    unfold GatherDims.start
    exact dif_neg (by decide)
  have hb : (𝔤).batchCoord (ix2 n q) (0 : Fin 2) = 0 := GatherDims.batchCoord_eq_zero _ _ _ (by decide)
  have ho : (𝔤).offCoord (ix2 n q) (0 : Fin 2) = n.val := by
    unfold GatherDims.offCoord
    rw [dif_pos (by decide)]
    rfl
  rw [hs, hb, ho]
  omega

/-- Along the columns the slice starts at the start index, which is the kept column's number. -/
theorem gather_col (n : Fin 1000000) (q : Fin 4) :
    (𝔤).start (ix2 n q) keptStart (1 : Fin 2) + (𝔤).batchCoord (ix2 n q) (1 : Fin 2) + (𝔤).offCoord (ix2 n q) (1 : Fin 2) = (col q).val := by
  have hb : (𝔤).batchCoord (ix2 n q) (1 : Fin 2) = 0 := GatherDims.batchCoord_eq_zero _ _ _ (by decide)
  have ho : (𝔤).offCoord (ix2 n q) (1 : Fin 2) = 0 := GatherDims.offCoord_eq_zero _ _ _ (by decide)
  have hs : (𝔤).start (ix2 n q) keptStart (1 : Fin 2) = (col q).val := by
    unfold GatherDims.start
    rw [dif_pos (by decide)]
    match q with
    | ⟨0, _⟩ => rfl
    | ⟨1, _⟩ => rfl
    | ⟨2, _⟩ => rfl
    | ⟨3, _⟩ => rfl
  rw [hs, hb, ho]
  omega

/-- The gathered matrix is the matrix of the four kept columns. -/
theorem gathered_eq {α : Type} (x : S1000000x256.Idx → α) :
    Host.gather 𝔤 x keptStart = picked x := by
  funext j
  obtain ⟨n, q, rfl⟩ : ∃ (n : Fin 1000000) (q : Fin 4), j = ix2 n q := ⟨j 0, j 1, eq_ix2 j⟩
  rw [picked_apply]
  unfold Host.gather
  refine congrArg x (funext fun a => Fin.ext ?_)
  match a with
  | ⟨0, _⟩ => exact gather_row n q
  | ⟨1, _⟩ => exact gather_col n q

end Cert.ReferenceIdeal.Hand

end
-- ==== Proof.RefResult.lean ====
/-
  The reference program, run. Its result buffer ends at the pooled score — the very function the kernel's program
  applies after its region — of the gathered matrix, the graph ids and the six parameter arrays; and the gathered matrix is
  the matrix of the four kept columns of the feature array. The two programs spell the shapes and dimension records of
  the shared operations under their own names; they are the same shapes and records, so the two spellings of the pooled
  score are one term.
-/
import proofs.«125669_j81587198755028_1_alg».proof.Proof.RefRun
import proofs.«125669_j81587198755028_1_alg».proof.Proof.RefKept
import proofs.«125669_j81587198755028_1_alg».proof.Proof.RefColumns
import proofs.«125669_j81587198755028_1_alg».proof.Proof.Tail

noncomputable section

namespace Cert.ReferenceIdeal.Hand

open Cert.ReferenceIdeal Cert.ReferenceIdeal.Gen Cert.CallFeatures
open Idealize.ShloMosaic Idealize.ShloMosaic.TcCoe Idealize.SL.Sem Idealize.ShloMosaic.StableHlo
open Cert.KernelIdeal.Hand (pooledScore)

variable {F : FTy → Type} [FloatOps F]

set_option maxHeartbeats 4000000 in
/-- The operations, run from any contents of the buffers, leave the result buffer at the pooled score of the gathered
    matrix, the graph ids and the parameter arrays as those contents have them. -/
theorem result_after (V : Valuation τ sig (Elt F)) :
    after ops V (Proc.devRef .tc main_v42)
      = pooledScore (Host.gather gather_S1000000x256_S4x1_S1000000x4_0_1_n_n_1_1_10000001 (V (Proc.devRef .tc main_arg0)) keptStart)
          (V (Proc.devRef .tc main_arg1)) (V (Proc.devRef .tc main_arg3)) (V (Proc.devRef .tc main_arg4))
          (V (Proc.devRef .tc main_arg5)) (V (Proc.devRef .tc main_arg6)) (V (Proc.devRef .tc main_arg7))
          (V (Proc.devRef .tc main_arg8)) := by
  after_results_simp
  rfl

/-- Every weakly fair execution of the reference terminates with the result buffer at the pooled score of the four kept
    columns of the feature array, and with the argument arrays as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = pooledScore (picked (m ((c.tc : Thread nD τ).loc main_arg0) : S1000000x256.Idx → Elt F .f32)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c main_v42).trans ((result_after _).trans (by rw [gathered_eq])),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _)⟩)
    (run_all m ρ)

end Cert.ReferenceIdeal.Hand

end
-- ==== Proof.lean ====
/-
  A graph classifier's pooling head, computed two ways. From a million nodes with 256 features each, only the features in
  columns 8, 10, 14 and 15 are used: their mean over the nodes of each of 4096 graphs goes through three small dense
  layers and a logistic function, and a graph without nodes scores zero. The kernel's program takes the four columns
  with a tiled kernel (a hundred blocks of ten thousand rows; each block's four columns sliced out and laid side by
  side), the reference with one gather; everything after that is the same operations in the same order.

  Proof/Columns.lean states the one matrix both must produce, `picked x (n, q) = x (n, col q)`. On the kernel's side,
  Proof/KernelBlock.lean reads the stored block entry by entry, Proof/KernelArray.lean shows that the hundred blocks are
  the blocks of `picked` of the feature array and cover the output, and Proof/KernelRun.lean runs the host operations
  that follow over that array. On the reference's side, Proof/RefRun.lean writes its program as a straight line and runs
  it, Proof/RefKept.lean notes that no argument is written, Proof/RefColumns.lean reads the gather at an entry, and
  Proof/RefResult.lean puts these together. Proof/Tail.lean names what comes after the columns once, as a function that
  neither side opens. Here the five claims are assembled: the two kernel programs' frames are their generated frame
  theorems, the reference's frame is its run with the result dropped, the idealization rewrote nothing, and the two
  results are the same function of arguments that agree. No arithmetic law is used, so the finiteness of the inputs is
  never needed.
-/
import proofs.«125669_j81587198755028_1_alg».proof.Defs
import proofs.«125669_j81587198755028_1_alg».proof.Proof.Gen.Kernel
import proofs.«125669_j81587198755028_1_alg».proof.Proof.Gen.Kernel.Frame
import proofs.«125669_j81587198755028_1_alg».proof.Proof.Gen.KernelIdeal
import proofs.«125669_j81587198755028_1_alg».proof.Proof.Gen.KernelIdeal.Frame
import proofs.«125669_j81587198755028_1_alg».proof.Proof.Gen.ReferenceIdeal
import proofs.«125669_j81587198755028_1_alg».proof.Proof.Gen.Pre_finite_inputs
import proofs.«125669_j81587198755028_1_alg».proof.Proof.KernelRun
import proofs.«125669_j81587198755028_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference terminates without fault and leaves its arguments alone: its run, the result forgotten. -/
theorem frame_reference : Cert.frame_ReferenceIdeal := fun m ρ _ =>
  (θ_run Cert.ReferenceIdeal.defs _ _).mono (fun _ h c => (h c).2) (Cert.ReferenceIdeal.Hand.run (F := Ideal) m ρ)

/-- The idealized kernel is the kernel's own text read over the extended reals: nothing was rewritten. -/
theorem preserves : Cert.preserves_Kernel_KernelIdeal := trivial

/-- Both programs end with the pooled score of the four kept columns of the feature array, the graph ids and the six
    parameter arrays; from memories that agree on the arguments these are the same arrays. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, -, e3, e4, e5, e6, e7, e8⟩ := hagree c
  rw [e0, e1, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
